-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v92) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x16x8 : Shape := ⟨3, ![4096, 16, 8]⟩
abbrev S_ : Shape := ⟨0, ![]⟩

class Facts : Prop where
  bcast_S_S4096x16x8 : S_.BroadcastsInDim S4096x16x8 (![] : Fin 0 → Fin S4096x16x8.rank)
  reducesTo_S4096x16x8_S_d0_1_2 : S4096x16x8.ReducesTo [0, 1, 2] S_
  h_S_ : 0 < S_.numel

variable [Facts]

def fn {F : FTy → Type} [FloatOps F] (main_arg0 : FVec F S4096x16x8 .f32) (main_arg1 : FVec F S4096x16x8 .f32) (main_arg2 : FVec F S4096x16x8 .f32) : IVec S_ 1 :=
  let main_v0 : FVec F S4096x16x8 .f32 := Host.absf main_arg0
  let main_cst : FVec F S_ .f32 := constant S_ .f32 0x7F800000#32
  let main_v1 : FVec F S4096x16x8 .f32 := broadcastInDim S4096x16x8 ![] bcast_S_S4096x16x8 main_cst
  let main_v2 : IVec S4096x16x8 1 := cmpf .olt main_v0 main_v1
  let main_c : IVec S_ 1 := constantI S_ 1 1#1
  let main_v3 : IVec S_ 1 := (fun x v => Host.reduce IntOp.andi x v reducesTo_S4096x16x8_S_d0_1_2 h_S_) main_v2 main_c
  let main_v4 : FVec F S4096x16x8 .f32 := Host.absf main_arg1
  let main_cst_0 : FVec F S_ .f32 := constant S_ .f32 0x7F800000#32
  let main_v5 : FVec F S4096x16x8 .f32 := broadcastInDim S4096x16x8 ![] bcast_S_S4096x16x8 main_cst_0
  let main_v6 : IVec S4096x16x8 1 := cmpf .olt main_v4 main_v5
  let main_c_1 : IVec S_ 1 := constantI S_ 1 1#1
  let main_v7 : IVec S_ 1 := (fun x v => Host.reduce IntOp.andi x v reducesTo_S4096x16x8_S_d0_1_2 h_S_) main_v6 main_c_1
  let main_v8 : IVec S_ 1 := andi main_v3 main_v7
  let main_v9 : FVec F S4096x16x8 .f32 := Host.absf main_arg2
  let main_cst_2 : FVec F S_ .f32 := constant S_ .f32 0x7F800000#32
  let main_v10 : FVec F S4096x16x8 .f32 := broadcastInDim S4096x16x8 ![] bcast_S_S4096x16x8 main_cst_2
  let main_v11 : IVec S4096x16x8 1 := cmpf .olt main_v9 main_v10
  let main_c_3 : IVec S_ 1 := constantI S_ 1 1#1
  let main_v12 : IVec S_ 1 := (fun x v => Host.reduce IntOp.andi x v reducesTo_S4096x16x8_S_d0_1_2 h_S_) main_v11 main_c_3
  let main_v13 : IVec S_ 1 := andi main_v8 main_v12
  main_v13
-- ==== Kernel.lean ====
abbrev S4096x16x8 : Shape := ⟨3, ![4096, 16, 8]⟩
abbrev S4096x128 : Shape := ⟨2, ![4096, 128]⟩
abbrev S256x128 : Shape := ⟨2, ![256, 128]⟩
abbrev S256 : Shape := ⟨1, ![256]⟩
abbrev S256x1 : Shape := ⟨2, ![256, 1]⟩
abbrev S256x4096 : Shape := ⟨2, ![256, 4096]⟩
abbrev S4096 : Shape := ⟨1, ![4096]⟩
abbrev S1x4096 : Shape := ⟨2, ![1, 4096]⟩
abbrev S128x4096 : Shape := ⟨2, ![128, 4096]⟩

abbrev nBuf : Space → Nat
  | .hbm => 8
  | .vmem => 6
  | .smem => 0
  | _ => 0

abbrev bufTy : (tb : Table) → Fin (tcTables nBuf tb) → BufTy
  | .hbm, ⟨0, _⟩ => ⟨S4096x16x8, .f32⟩
  | .hbm, ⟨1, _⟩ => ⟨S4096x16x8, .f32⟩
  | .hbm, ⟨2, _⟩ => ⟨S4096x16x8, .f32⟩
  | .hbm, ⟨3, _⟩ => ⟨S4096x128, .f32⟩
  | .hbm, ⟨4, _⟩ => ⟨S4096x128, .f32⟩
  | .hbm, ⟨5, _⟩ => ⟨S4096x128, .f32⟩
  | .hbm, ⟨6, _⟩ => ⟨S4096x128, .f32⟩
  | .hbm, ⟨7, _⟩ => ⟨S4096x16x8, .f32⟩
  | .local _ .vmem, ⟨0, _⟩ => ⟨S256x128, .f32⟩
  | .local _ .vmem, ⟨1, _⟩ => ⟨S256x128, .f32⟩
  | .local _ .vmem, ⟨2, _⟩ => ⟨S4096x128, .f32⟩
  | .local _ .vmem, ⟨3, _⟩ => ⟨S4096x128, .f32⟩
  | .local _ .vmem, ⟨4, _⟩ => ⟨S256x128, .f32⟩
  | .local _ .vmem, ⟨5, _⟩ => ⟨S256x128, .f32⟩
  | _, _ => ⟨S4096x16x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4096x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S4096x16x8_S4096x128 : S4096x16x8.ShapeCasts S4096x128
  inb_S256x128_S256x128_0_0 : ∀ a, (![0, 0] : Fin 2 → Nat) a + S256x128.size a ≤ S256x128.size a
  h_S256x128 : 0 < S256x128.numel
  shapeCasts_S256x128_S256x128 : S256x128.ShapeCasts S256x128
  reduces_S256x128_S256 : S256x128.Reduces [1] S256
  shapeCasts_S256_S256x1 : S256.ShapeCasts S256x1
  iota_S256x4096_d0_w32 : S256x4096.Iotas .tc 32 [0]
  iota_S256x4096_d1_w32 : S256x4096.Iotas .tc 32 [1]
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  reduces_S4096x128_S4096 : S4096x128.Reduces [1] S4096
  shapeCasts_S4096_S1x4096 : S4096.ShapeCasts S1x4096
  transposes_S4096x128_p1_0_S128x4096 : S4096x128.Transposes [1, 0] S128x4096
  broadcasts_S256x1_S256x4096 : S256x1.Broadcasts S256x4096
  broadcasts_S1x4096_S256x4096 : S1x4096.Broadcasts S256x4096
  reduces_S256x4096_S256 : S256x4096.Reduces [1] S256
  bitsLt_bf16_f32 : FTy.bits .bf16 < FTy.bits .f32
  broadcasts_S256x1_S256x128 : S256x1.Broadcasts S256x128
  shapeCasts_S4096x128_S4096x16x8 : S4096x128.ShapeCasts S4096x16x8
  dot_S256x128_S128x4096_S256x4096_1_0_0_1_n_n_wf : DotDims.WF S256x128 S128x4096 S256x4096 [1] [0] [0] [1] [] []
  dot_S256x4096_S4096x128_S256x128_1_0_0_1_n_n_wf : DotDims.WF S256x4096 S4096x128 S256x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x128.size a ≤ S4096x128.size a
  hwx0_0 : ∀ i : grid0.Coords, EltTy.bits .f32 = 32 ∨ (Rect.block (s := S4096x128) S256x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x128.size a ≤ S4096x128.size a
  hwx0_1 : ∀ i : grid0.Coords, EltTy.bits .f32 = 32 ∨ (Rect.block (s := S4096x128) S4096x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4096x128.size a ≤ S4096x128.size a
  hwx0_2 : ∀ i : grid0.Coords, EltTy.bits .f32 = 32 ∨ (Rect.block (s := S4096x128) S4096x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x128.size a ≤ S4096x128.size a
  hwx0_3 : ∀ i : grid0.Coords, EltTy.bits .f32 = 32 ∨ (Rect.block (s := S4096x128) S256x128.size (cc0_transform_3 i) (hinb0_3 i)).WholeWords (EltTy.packing .f32)

variable [Facts₀]

def dot_S256x128_S128x4096_S256x4096_1_0_0_1_n_n : DotDims S256x128 S128x4096 S256x4096 where
  lhsContracting := [1]
  rhsContracting := [0]
  lhsNonContracting := [0]
  rhsNonContracting := [1]
  lhsBatch := []
  rhsBatch := []
  wf := dot_S256x128_S128x4096_S256x4096_1_0_0_1_n_n_wf
def dot_S256x4096_S4096x128_S256x128_1_0_0_1_n_n : DotDims S256x4096 S4096x128 S256x128 where
  lhsContracting := [1]
  rhsContracting := [0]
  lhsNonContracting := [0]
  rhsNonContracting := [1]
  lhsBatch := []
  rhsBatch := []
  wf := dot_S256x4096_S4096x128_S256x128_1_0_0_1_n_n_wf

abbrev win0_0 : Pipeline.Window sig grid0 :=
  Pipeline.Window.ofSpec (Memref.whole main_v0) S256x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S4096x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S4096x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S256x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4096x16x8 : Shape := ⟨3, ![4096, 16, 8]⟩
abbrev S4096x128 : Shape := ⟨2, ![4096, 128]⟩
abbrev S_ : Shape := ⟨0, ![]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S128x4096 : Shape := ⟨2, ![128, 4096]⟩

abbrev nBuf : Space → Nat
  | .hbm => 118
  | .vmem => 0
  | .smem => 0
  | _ => 0

abbrev bufTy : (tb : Table) → Fin (tcTables nBuf tb) → BufTy
  | .hbm, ⟨0, _⟩ => ⟨S4096x16x8, .f32⟩
  | .hbm, ⟨1, _⟩ => ⟨S4096x16x8, .f32⟩
  | .hbm, ⟨2, _⟩ => ⟨S4096x16x8, .f32⟩
  | .hbm, ⟨3, _⟩ => ⟨S4096x128, .f32⟩
  | .hbm, ⟨4, _⟩ => ⟨S4096x128, .f32⟩
  | .hbm, ⟨5, _⟩ => ⟨S4096x128, .f32⟩
  | .hbm, ⟨6, _⟩ => ⟨S4096x128, .f32⟩
  | .hbm, ⟨7, _⟩ => ⟨S_, .f32⟩
  | .hbm, ⟨8, _⟩ => ⟨S4096, .f32⟩
  | .hbm, ⟨9, _⟩ => ⟨S4096x128, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S1x4096, .f32⟩
  | .hbm, ⟨14, _⟩ => ⟨S4096x4096, .f32⟩
  | .hbm, ⟨15, _⟩ => ⟨S4096x4096, .f32⟩
  | .hbm, ⟨16, _⟩ => ⟨S4096x4096, .f32⟩
  | .hbm, ⟨17, _⟩ => ⟨S128x4096, .f32⟩
  | .hbm, ⟨18, _⟩ => ⟨S4096x4096, .f32⟩
  | .hbm, ⟨19, _⟩ => ⟨S_, .f32⟩
  | .hbm, ⟨20, _⟩ => ⟨S4096x4096, .f32⟩
  | .hbm, ⟨21, _⟩ => ⟨S4096x4096, .f32⟩
  | .hbm, ⟨22, _⟩ => ⟨S4096x4096, .f32⟩
  | .hbm, ⟨23, _⟩ => ⟨S_, .f32⟩
  | .hbm, ⟨24, _⟩ => ⟨S4096x4096, .f32⟩
  | .hbm, ⟨25, _⟩ => ⟨S4096x4096, .f32⟩
  | .hbm, ⟨26, _⟩ => ⟨S4096x4096, .f32⟩
  | .hbm, ⟨27, _⟩ => ⟨S_, .f32⟩
  | .hbm, ⟨28, _⟩ => ⟨S4096x4096, .f32⟩
  | .hbm, ⟨29, _⟩ => ⟨S4096x4096, .f32⟩
  | .hbm, ⟨30, _⟩ => ⟨S4096x4096, .f32⟩
  | .hbm, ⟨31, _⟩ => ⟨S4096x4096, .i32⟩
  | .hbm, ⟨32, _⟩ => ⟨S4096x4096, .i32⟩
  | .hbm, ⟨33, _⟩ => ⟨S_, .i32⟩
  | .hbm, ⟨34, _⟩ => ⟨S4096x4096, .i32⟩
  | .hbm, ⟨35, _⟩ => ⟨S4096x4096, .i32⟩
  | .hbm, ⟨36, _⟩ => ⟨S4096x4096, .i1⟩
  | .hbm, ⟨37, _⟩ => ⟨S4096x4096, .f32⟩
  | .hbm, ⟨38, _⟩ => ⟨S_, .f32⟩
  | .hbm, ⟨39, _⟩ => ⟨S4096x4096, .f32⟩
  | .hbm, ⟨40, _⟩ => ⟨S4096x4096, .f32⟩
  | .hbm, ⟨41, _⟩ => ⟨S4096x4096, .f32⟩
  | .hbm, ⟨42, _⟩ => ⟨S_, .f32⟩
  | .hbm, ⟨43, _⟩ => ⟨S4096, .f32⟩
  | .hbm, ⟨44, _⟩ => ⟨S4096x1, .f32⟩
  | .hbm, ⟨45, _⟩ => ⟨S_, .f32⟩
  | .hbm, ⟨46, _⟩ => ⟨S4096x1, .f32⟩
  | .hbm, ⟨47, _⟩ => ⟨S4096x1, .f32⟩
  | .hbm, ⟨48, _⟩ => ⟨S4096x4096, .f32⟩
  | .hbm, ⟨49, _⟩ => ⟨S4096x4096, .f32⟩
  | .hbm, ⟨50, _⟩ => ⟨S4096x1, .f32⟩
  | .hbm, ⟨51, _⟩ => ⟨S4096x128, .f32⟩
  | .hbm, ⟨52, _⟩ => ⟨S4096x128, .f32⟩
  | .hbm, ⟨53, _⟩ => ⟨S4096x128, .f32⟩
  | .hbm, ⟨54, _⟩ => ⟨S4096x128, .f32⟩
  | .hbm, ⟨55, _⟩ => ⟨S_, .f32⟩
  | .hbm, ⟨56, _⟩ => ⟨S4096x128, .f32⟩
  | .hbm, ⟨57, _⟩ => ⟨S4096x128, .f32⟩
  | .hbm, ⟨58, _⟩ => ⟨S_, .f32⟩
  | .hbm, ⟨59, _⟩ => ⟨S4096x128, .f32⟩
  | .hbm, ⟨60, _⟩ => ⟨S4096x128, .f32⟩
  | .hbm, ⟨61, _⟩ => ⟨S4096x128, .f32⟩
  | .hbm, ⟨62, _⟩ => ⟨S_, .f32⟩
  | .hbm, ⟨63, _⟩ => ⟨S4096, .f32⟩
  | .hbm, ⟨64, _⟩ => ⟨S4096x128, .f32⟩
  | .hbm, ⟨65, _⟩ => ⟨S_, .f32⟩
  | .hbm, ⟨66, _⟩ => ⟨S4096, .f32⟩
  | .hbm, ⟨67, _⟩ => ⟨S4096x1, .f32⟩
  | .hbm, ⟨68, _⟩ => ⟨S1x4096, .f32⟩
  | .hbm, ⟨69, _⟩ => ⟨S4096x4096, .f32⟩
  | .hbm, ⟨70, _⟩ => ⟨S4096x4096, .f32⟩
  | .hbm, ⟨71, _⟩ => ⟨S4096x4096, .f32⟩
  | .hbm, ⟨72, _⟩ => ⟨S128x4096, .f32⟩
  | .hbm, ⟨73, _⟩ => ⟨S4096x4096, .f32⟩
  | .hbm, ⟨74, _⟩ => ⟨S_, .f32⟩
  | .hbm, ⟨75, _⟩ => ⟨S4096x4096, .f32⟩
  | .hbm, ⟨76, _⟩ => ⟨S4096x4096, .f32⟩
  | .hbm, ⟨77, _⟩ => ⟨S4096x4096, .f32⟩
  | .hbm, ⟨78, _⟩ => ⟨S_, .f32⟩
  | .hbm, ⟨79, _⟩ => ⟨S4096x4096, .f32⟩
  | .hbm, ⟨80, _⟩ => ⟨S4096x4096, .f32⟩
  | .hbm, ⟨81, _⟩ => ⟨S4096x4096, .f32⟩
  | .hbm, ⟨82, _⟩ => ⟨S_, .f32⟩
  | .hbm, ⟨83, _⟩ => ⟨S4096x4096, .f32⟩
  | .hbm, ⟨84, _⟩ => ⟨S4096x4096, .f32⟩
  | .hbm, ⟨85, _⟩ => ⟨S4096x4096, .f32⟩
  | .hbm, ⟨86, _⟩ => ⟨S4096x4096, .i32⟩
  | .hbm, ⟨87, _⟩ => ⟨S4096x4096, .i32⟩
  | .hbm, ⟨88, _⟩ => ⟨S_, .i32⟩
  | .hbm, ⟨89, _⟩ => ⟨S4096x4096, .i32⟩
  | .hbm, ⟨90, _⟩ => ⟨S4096x4096, .i32⟩
  | .hbm, ⟨91, _⟩ => ⟨S4096x4096, .i1⟩
  | .hbm, ⟨92, _⟩ => ⟨S4096x4096, .f32⟩
  | .hbm, ⟨93, _⟩ => ⟨S_, .f32⟩
  | .hbm, ⟨94, _⟩ => ⟨S4096x4096, .f32⟩
  | .hbm, ⟨95, _⟩ => ⟨S4096x4096, .f32⟩
  | .hbm, ⟨96, _⟩ => ⟨S4096x4096, .f32⟩
  | .hbm, ⟨97, _⟩ => ⟨S_, .f32⟩
  | .hbm, ⟨98, _⟩ => ⟨S4096, .f32⟩
  | .hbm, ⟨99, _⟩ => ⟨S4096x1, .f32⟩
  | .hbm, ⟨100, _⟩ => ⟨S_, .f32⟩
  | .hbm, ⟨101, _⟩ => ⟨S4096x1, .f32⟩
  | .hbm, ⟨102, _⟩ => ⟨S4096x1, .f32⟩
  | .hbm, ⟨103, _⟩ => ⟨S4096x4096, .f32⟩
  | .hbm, ⟨104, _⟩ => ⟨S4096x4096, .f32⟩
  | .hbm, ⟨105, _⟩ => ⟨S4096x1, .f32⟩
  | .hbm, ⟨106, _⟩ => ⟨S4096x128, .f32⟩
  | .hbm, ⟨107, _⟩ => ⟨S4096x128, .f32⟩
  | .hbm, ⟨108, _⟩ => ⟨S4096x128, .f32⟩
  | .hbm, ⟨109, _⟩ => ⟨S4096x128, .f32⟩
  | .hbm, ⟨110, _⟩ => ⟨S_, .f32⟩
  | .hbm, ⟨111, _⟩ => ⟨S4096x128, .f32⟩
  | .hbm, ⟨112, _⟩ => ⟨S4096x128, .f32⟩
  | .hbm, ⟨113, _⟩ => ⟨S_, .f32⟩
  | .hbm, ⟨114, _⟩ => ⟨S4096x128, .f32⟩
  | .hbm, ⟨115, _⟩ => ⟨S4096x128, .f32⟩
  | .hbm, ⟨116, _⟩ => ⟨S4096x128, .f32⟩
  | .hbm, ⟨117, _⟩ => ⟨S4096x16x8, .f32⟩
  | _, _ => ⟨S4096x16x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_3 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_c : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_4 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst_5 : Ref sig .tc := ⟨.hbm, 42, rfl⟩
abbrev main_v32 : Ref sig .tc := ⟨.hbm, 43, rfl⟩
abbrev main_v33 : Ref sig .tc := ⟨.hbm, 44, rfl⟩
abbrev main_cst_6 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_cst_7 : Ref sig .tc := ⟨.hbm, 55, rfl⟩
abbrev main_v43 : Ref sig .tc := ⟨.hbm, 56, rfl⟩
abbrev main_v44 : Ref sig .tc := ⟨.hbm, 57, rfl⟩
abbrev main_cst_8 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_cst_9 : Ref sig .tc := ⟨.hbm, 62, rfl⟩
abbrev main_v48 : Ref sig .tc := ⟨.hbm, 63, rfl⟩
abbrev main_v49 : Ref sig .tc := ⟨.hbm, 64, rfl⟩
abbrev main_cst_10 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_cst_11 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_cst_12 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_cst_13 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_c_14 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_cst_15 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_cst_16 : Ref sig .tc := ⟨.hbm, 97, rfl⟩
abbrev main_v76 : Ref sig .tc := ⟨.hbm, 98, rfl⟩
abbrev main_v77 : Ref sig .tc := ⟨.hbm, 99, rfl⟩
abbrev main_cst_17 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_cst_18 : Ref sig .tc := ⟨.hbm, 110, rfl⟩
abbrev main_v87 : Ref sig .tc := ⟨.hbm, 111, rfl⟩
abbrev main_v88 : Ref sig .tc := ⟨.hbm, 112, rfl⟩
abbrev main_cst_19 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩

abbrev nD : Nat := 1
abbrev τ : Topo := Topo.v7x

variable {F : FTy → Type} [FloatOps F]

class Facts₀ : Prop where
  shapeCasts_S4096x16x8_S4096x128 : S4096x16x8.ShapeCasts S4096x128
  reducesTo_S4096x128_S4096_d1 : S4096x128.ReducesTo [1] S4096
  h_S_ : 0 < S_.numel
  bcast_S4096_S4096x1_0 : S4096.BroadcastsInDim S4096x1 (![0] : Fin 1 → Fin S4096x1.rank)
  bcast_S4096_S1x4096_1 : S4096.BroadcastsInDim S1x4096 (![1] : Fin 1 → Fin S1x4096.rank)
  bcast_S4096x1_S4096x4096_0_1 : S4096x1.BroadcastsInDim S4096x4096 (![0, 1] : Fin 2 → Fin S4096x4096.rank)
  bcast_S1x4096_S4096x4096_0_1 : S1x4096.BroadcastsInDim S4096x4096 (![0, 1] : Fin 2 → Fin S4096x4096.rank)
  transposes_S4096x128_S128x4096_1_0 : S4096x128.Transposes [1, 0] S128x4096
  bcast_S_S4096x4096 : S_.BroadcastsInDim S4096x4096 (![] : Fin 0 → Fin S4096x4096.rank)
  reducesTo_S4096x4096_S4096_d1 : S4096x4096.ReducesTo [1] S4096
  bcast_S_S4096x1 : S_.BroadcastsInDim S4096x1 (![] : Fin 0 → Fin S4096x1.rank)
  bcast_S4096x1_S4096x128_0_1 : S4096x1.BroadcastsInDim S4096x128 (![0, 1] : Fin 2 → Fin S4096x128.rank)
  bcast_S_S4096x128 : S_.BroadcastsInDim S4096x128 (![] : Fin 0 → Fin S4096x128.rank)
  shapeCasts_S4096x128_S4096x16x8 : S4096x128.ShapeCasts S4096x16x8
  dot_S4096x128_S128x4096_S4096x4096_1_0_0_1_n_n_wf : DotDims.WF S4096x128 S128x4096 S4096x4096 [1] [0] [0] [1] [] []
  dot_S4096x4096_S4096x128_S4096x128_1_0_0_1_n_n_wf : DotDims.WF S4096x4096 S4096x128 S4096x128 [1] [0] [0] [1] [] []

variable [Facts₀]

def dot_S4096x128_S128x4096_S4096x4096_1_0_0_1_n_n : DotDims S4096x128 S128x4096 S4096x4096 where
  lhsContracting := [1]
  rhsContracting := [0]
  lhsNonContracting := [0]
  rhsNonContracting := [1]
  lhsBatch := []
  rhsBatch := []
  wf := dot_S4096x128_S128x4096_S4096x4096_1_0_0_1_n_n_wf
def dot_S4096x4096_S4096x128_S4096x128_1_0_0_1_n_n : DotDims S4096x4096 S4096x128 S4096x128 where
  lhsContracting := [1]
  rhsContracting := [0]
  lhsNonContracting := [0]
  rhsNonContracting := [1]
  lhsBatch := []
  rhsBatch := []
  wf := dot_S4096x4096_S4096x128_S4096x128_1_0_0_1_n_n_wf

class Facts : Prop extends Facts₀ where

variable [Facts]
-- ==== Proof.LibDriftAlgebra.lean ====
/-
  A kernel-weighted drift row, in two arrangements, over abstract finite index types.

  For one row `x : κ → EReal` of the query array, a key array `Y : ι → κ → EReal` and a predicate `dg` marking the key
  that is the row itself, the Gaussian weight of key `j` is `exp (-(d² x (Y j)) / 2)` with
  `d² = max (|x|² + |Y j|² - 2 x·Y j) 0`, set to zero on the marked key; the field is
  `x · (s / max s ε) - (∑ⱼ wⱼ Y j) / max s ε` with `s = ∑ⱼ wⱼ`, and the drift is `-field(Yp) + field(Yn) / 2`.
  One arrangement (`driftK`) multiplies the clamped distance by `-1/2`, masks by a choice, and divides the weighted sum
  once; the other (`driftR`) negates and halves the distance, masks by the factor `1 - [dg j]`, normalises each
  weight before summing, and carries unit factors. They agree on ALL extended reals: the weights lie in `[0, 1]`
  whatever the inputs, so the normaliser is a positive real, and multiplication by a non-negative real distributes
  over any extended-real sum.
-/
import Idealize.ShloMosaic.PureOps.Ideal
import Idealize.ShloMosaic.PureOps.Ideal.Laws

noncomputable section

namespace Cert.Drift

open Idealize.ShloMosaic
open scoped BigOperators

/-! ## The float literals the two programs spell, as extended reals -/

theorem ofBits_two : Ideal.ofBits .f32 0x40000000#32 = ((2 : ℝ) : EReal) := by
  simp [Ideal.ofBits, Ideal.ieee, -EReal.coe_mul]; norm_num
theorem ofBits_neg_half : Ideal.ofBits .f32 0xBF000000#32 = ((-(1/2) : ℝ) : EReal) := by
  simp [Ideal.ofBits, Ideal.ieee, -EReal.coe_mul]; norm_num
theorem ofBits_one : Ideal.ofBits .f32 0x3F800000#32 = 1 := by
  simp [Ideal.ofBits, Ideal.ieee, -EReal.coe_mul]; norm_num
/-- The floor of the normaliser is a positive real. -/
theorem ofBits_eps : ∃ e : ℝ, 0 < e ∧ Ideal.ofBits .f32 0x322BCC77#32 = (e : EReal) := by
  refine ⟨11258999 * (2:ℝ)^(-50 : Int), by positivity, ?_⟩
  simp [Ideal.ofBits, Ideal.ieee, -EReal.coe_mul]

/-! ## Two small facts about sums of extended reals -/

/-- A finite sum of reals, read as extended reals, is the sum of the terms. -/
theorem coe_sum {α : Type} (s : Finset α) (a : α → ℝ) : ((∑ j ∈ s, a j : ℝ) : EReal) = ∑ j ∈ s, (a j : EReal) := by
  classical
  induction s using Finset.induction_on with
  | empty => simp
  | insert j s hj ih => rw [Finset.sum_insert hj, Finset.sum_insert hj, EReal.coe_add, ih]

/-- A non-negative real factor distributes over any finite sum of extended reals. -/
theorem mul_sum_of_nonneg {α : Type} (s : Finset α) (c : ℝ) (hc : 0 ≤ c) (t : α → EReal) :
    (c : EReal) * ∑ j ∈ s, t j = ∑ j ∈ s, (c : EReal) * t j := by
  classical
  induction s using Finset.induction_on with
  | empty => simp
  | insert j s hj ih =>
    rw [Finset.sum_insert hj, Finset.sum_insert hj,
      EReal.left_distrib_of_nonneg_of_ne_top (EReal.coe_nonneg.mpr hc) (EReal.coe_ne_top c), ih]

variable {ι κ : Type} [Fintype ι] [Fintype κ]

/-! ## The shared part: squared norms, the clamped squared distance -/

/-- The squared norm of a row. -/
def sqv (x : κ → EReal) : EReal := ∑ k, x k * x k

/-- The clamped squared distance between a row and key `j`, as `|x|² + |y|² - 2 x·y`. -/
def dist2 (x : κ → EReal) (Y : ι → κ → EReal) (j : ι) : EReal :=
  max ((sqv x + sqv (Y j)) - Ideal.ofBits .f32 0x40000000#32 * ∑ k, x k * Y j k) (Ideal.ofBits .f32 0x00000000#32)

theorem dist2_nonneg (x : κ → EReal) (Y : ι → κ → EReal) (j : ι) : 0 ≤ dist2 x Y j := by
  unfold dist2; rw [Ideal.ofBits_zero_f32]; exact le_max_right _ _

/-! ## The first arrangement -/

/-- The weight of key `j`: zero on the marked key, else `exp (d² · (-1/2))`. -/
def wgtK (x : κ → EReal) (Y : ι → κ → EReal) (dg : ι → Prop) [DecidablePred dg] (j : ι) : EReal :=
  if dg j then Ideal.ofBits .f32 0x00000000#32 else Ideal.exp (dist2 x Y j * Ideal.ofBits .f32 0xBF000000#32)

/-- The field of one key array at feature `k`: the weighted sum divided once by the normaliser. -/
def fieldK (x : κ → EReal) (Y : ι → κ → EReal) (dg : ι → Prop) [DecidablePred dg] (k : κ) : EReal :=
  x k * Ideal.div (∑ j, wgtK x Y dg j) (max (∑ j, wgtK x Y dg j) (Ideal.ofBits .f32 0x322BCC77#32))
    - Ideal.div (∑ j, wgtK x Y dg j * Y j k) (max (∑ j, wgtK x Y dg j) (Ideal.ofBits .f32 0x322BCC77#32))

/-- The drift: minus the field of the first key array plus half the field of the second. -/
def driftK (x : κ → EReal) (Yp Yn : ι → κ → EReal) (dg : ι → Prop) [DecidablePred dg] (k : κ) : EReal :=
  Ideal.ofBits .f32 0xBF800000#32 * fieldK x Yp dg k + Ideal.ofBits .f32 0x3F000000#32 * fieldK x Yn dg k

/-! ## The second arrangement -/

/-- The weight of key `j`: `exp ((-d²) / 2)` times `1 - [dg j]`. -/
def wgtR (x : κ → EReal) (Y : ι → κ → EReal) (dg : ι → Prop) [DecidablePred dg] (j : ι) : EReal :=
  Ideal.exp (Ideal.div (-(dist2 x Y j)) (Ideal.ofBits .f32 0x40000000#32))
    * (Ideal.ofBits .f32 0x3F800000#32 - (if dg j then (1 : EReal) else 0))

/-- The field with every weight normalised before the sum over the keys. -/
def fieldR (x : κ → EReal) (Y : ι → κ → EReal) (dg : ι → Prop) [DecidablePred dg] (k : κ) : EReal :=
  x k * Ideal.div (∑ j, wgtR x Y dg j) (max (∑ j, wgtR x Y dg j) (Ideal.ofBits .f32 0x322BCC77#32))
    - ∑ j, Ideal.div (wgtR x Y dg j) (max (∑ j', wgtR x Y dg j') (Ideal.ofBits .f32 0x322BCC77#32)) * Y j k

/-- The drift with its unit factors. -/
def driftR (x : κ → EReal) (Yp Yn : ι → κ → EReal) (dg : ι → Prop) [DecidablePred dg] (k : κ) : EReal :=
  Ideal.ofBits .f32 0x3F800000#32 * (Ideal.ofBits .f32 0xBF800000#32 * fieldR x Yp dg k)
    + Ideal.ofBits .f32 0x3F000000#32 * (Ideal.ofBits .f32 0x3F800000#32 * fieldR x Yn dg k)

/-! ## They agree -/

variable (x : κ → EReal) (Y Yp Yn : ι → κ → EReal) (dg : ι → Prop) [DecidablePred dg]

/-- Key by key the two weights are one extended real: on the marked key both vanish; elsewhere
    `(-d) / 2 = d · (-1/2)` and the mask factor is one. -/
theorem wgtR_eq (j : ι) : wgtR x Y dg j = wgtK x Y dg j := by
  unfold wgtR wgtK
  by_cases h : dg j
  · rw [if_pos h, if_pos h, ofBits_one, Ideal.ofBits_zero_f32]
    have : ((1 : EReal) - 1) = 0 := by rw [← EReal.coe_one, ← EReal.coe_sub, sub_self, EReal.coe_zero]
    rw [this, mul_zero]
  · rw [if_neg h, if_neg h, ofBits_one, sub_zero, mul_one, ofBits_two, ofBits_neg_half,
      Ideal.div_coe (by norm_num : (2 : ℝ) ≠ 0)]
    refine congrArg Ideal.exp ?_
    rw [EReal.coe_neg, mul_neg, neg_mul]

/-- A weight is a real in `[0, 1]`, whatever the inputs: the clamped distance is non-negative, so the exponent is
    non-positive (or `-∞`, where the exponential is zero). -/
theorem wgtK_real (j : ι) : ∃ a : ℝ, 0 ≤ a ∧ wgtK x Y dg j = (a : EReal) := by
  unfold wgtK
  by_cases h : dg j
  · exact ⟨0, le_refl _, by rw [if_pos h, Ideal.ofBits_zero_f32, EReal.coe_zero]⟩
  · rw [if_neg h, ofBits_neg_half]
    have hd := dist2_nonneg x Y j
    generalize dist2 x Y j = d at hd
    induction d using EReal.rec with
    | bot => exact absurd hd (by simp)
    | coe r =>
      refine ⟨Real.exp (r * -(1/2)), (Real.exp_pos _).le, ?_⟩
      rw [← EReal.coe_mul]; rfl
    | top =>
      refine ⟨0, le_refl _, ?_⟩
      rw [EReal.top_mul_coe_of_neg (by norm_num : (-(1/2) : ℝ) < 0)]; rfl

/-- So the normaliser `max (∑ w) ε` is a positive real. -/
theorem den_real : ∃ d : ℝ, 0 < d ∧ max (∑ j, wgtK x Y dg j) (Ideal.ofBits .f32 0x322BCC77#32) = (d : EReal) := by
  choose a ha0 ha using wgtK_real x Y dg
  obtain ⟨e, he, hee⟩ := ofBits_eps
  refine ⟨max (∑ j, a j) e, lt_max_of_lt_right he, ?_⟩
  rw [hee, EReal.coe_strictMono.monotone.map_max, coe_sum]
  exact congrArg (fun z : EReal => max z (e : EReal)) (Finset.sum_congr rfl fun j _ => ha j)

/-- The fields agree: dividing every weight by the positive real normaliser and then summing against a feature is
    dividing the weighted sum once. -/
theorem fieldR_eq (k : κ) : fieldR x Y dg k = fieldK x Y dg k := by
  unfold fieldR fieldK
  simp only [wgtR_eq]
  obtain ⟨d, hd, hden⟩ := den_real x Y dg
  rw [hden]
  congr 1
  simp only [Ideal.div_coe hd.ne']
  have hc : (0 : ℝ) ≤ 1 / d := by positivity
  rw [mul_comm (∑ j, wgtK x Y dg j * Y j k) _, mul_sum_of_nonneg _ _ hc]
  exact Finset.sum_congr rfl fun j _ => by rw [mul_right_comm, mul_comm]

/-- The drifts agree. -/
theorem driftR_eq (k : κ) : driftR x Yp Yn dg k = driftK x Yp Yn dg k := by
  unfold driftR driftK
  rw [fieldR_eq, fieldR_eq, ofBits_one, one_mul, one_mul]

end Cert.Drift

end
-- ==== Proof.DriftSpec.lean ====
/-
  The drift array: what both programs compute, as one function of the three flattened argument arrays.

  Row `r`, feature `k` of the result is the drift (`Cert.Drift.driftK`) of row `r` of the query array against the two key
  arrays, the marked key being key `r` itself. A second spelling (`driftArrR`) uses the other arrangement of the same
  quantity; the two arrays are equal on all extended reals.
-/
import proofs.«131119_j30296699306003_2_alg».proof.Proof.LibDriftAlgebra
import Idealize.ShloMosaic.Lib.ValueIdx

noncomputable section

namespace Cert.Drift

open Idealize.ShloMosaic Idealize.ShloMosaic.ValueIdx

/-- The drift array over [4096, 128] arrays, in the first arrangement. -/
def driftArr (X Yp Yn : (⟨2, ![4096, 128]⟩ : Shape).Idx → EReal) : (⟨2, ![4096, 128]⟩ : Shape).Idx → EReal :=
  fun i => driftK (fun k : Fin 128 => X (ix2 (i 0 : Fin 4096) k)) (fun (j : Fin 4096) (k : Fin 128) => Yp (ix2 j k))
    (fun (j : Fin 4096) (k : Fin 128) => Yn (ix2 j k)) (fun j : Fin 4096 => (i 0 : Fin 4096).val = j.val) (i 1 : Fin 128)

/-- The same array in the second arrangement. -/
def driftArrR (X Yp Yn : (⟨2, ![4096, 128]⟩ : Shape).Idx → EReal) : (⟨2, ![4096, 128]⟩ : Shape).Idx → EReal :=
  fun i => driftR (fun k : Fin 128 => X (ix2 (i 0 : Fin 4096) k)) (fun (j : Fin 4096) (k : Fin 128) => Yp (ix2 j k))
    (fun (j : Fin 4096) (k : Fin 128) => Yn (ix2 j k)) (fun j : Fin 4096 => (i 0 : Fin 4096).val = j.val) (i 1 : Fin 128)

theorem driftArr_apply (X Yp Yn : (⟨2, ![4096, 128]⟩ : Shape).Idx → EReal) (r : Fin 4096) (k : Fin 128) :
    driftArr X Yp Yn (ix2 r k)
      = driftK (fun k : Fin 128 => X (ix2 r k)) (fun (j : Fin 4096) (k : Fin 128) => Yp (ix2 j k))
          (fun (j : Fin 4096) (k : Fin 128) => Yn (ix2 j k)) (fun j : Fin 4096 => r.val = j.val) k := rfl

theorem driftArrR_apply (X Yp Yn : (⟨2, ![4096, 128]⟩ : Shape).Idx → EReal) (r : Fin 4096) (k : Fin 128) :
    driftArrR X Yp Yn (ix2 r k)
      = driftR (fun k : Fin 128 => X (ix2 r k)) (fun (j : Fin 4096) (k : Fin 128) => Yp (ix2 j k))
          (fun (j : Fin 4096) (k : Fin 128) => Yn (ix2 j k)) (fun j : Fin 4096 => r.val = j.val) k := rfl

/-- The two arrangements give one array. -/
theorem driftArrR_eq (X Yp Yn : (⟨2, ![4096, 128]⟩ : Shape).Idx → EReal) : driftArrR X Yp Yn = driftArr X Yp Yn :=
  funext fun _ => driftR_eq _ _ _ _ _

end Cert.Drift

end
-- ==== Proof.LibColumnLayout.lean ====
/-
  Column ("keepdims") layouts read at an index.

  A row-wise reduction of an [a, b] array leaves one number per row, a vector of shape [a].  To use it again against
  the [a, b] array it is first viewed as a column [a, 1] and the column is then repeated along its unit axis.  The two
  lemmas below say what those two steps read at an index written by its coordinates: the column at (i, u) is the
  vector at i, and the repeated column at (p, c) is the column at (p, u), whatever the column coordinate c is.  Both
  hold for any element type and any extents a and b.
-/
import Idealize.ShloMosaic.Lib.Pipeline.Value
import Idealize.ShloMosaic.Lib.ValueIdx

namespace Cert.Lib.ColumnLayout

open Idealize.ShloMosaic Idealize.ShloMosaic.ValueIdx

variable {α : Type}

/-- A vector of shape [a] cast to the column [a, 1] reads, at (i, u), the vector at i: the row-major position of
    (i, u) in [a, 1] is i · 1 + u, and u is 0. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] repeated along its unit axis to [a, b] reads, at (p, c), the column at (p, u): on the first axis
    the coordinate is kept (when a = 1 it is 0 on both sides), on the unit axis the operand's coordinate is 0. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) (u : Fin 1) : broadcastTo ⟨2, ![a, b]⟩ v h (ix2 p c) = v (ix2 p u) := by
  refine broadcastTo_apply v h (ix2 p c) (ix2 p u) fun ax => ?_
  match ax with
  | ⟨0, _⟩ =>
    show p.val = if a = 1 then 0 else p.val
    split
    · have := p.isLt; omega
    · rfl
  | ⟨1, _⟩ =>
    show u.val = if (1 : ℕ) = 1 then 0 else c.val
    rw [if_pos rfl]; omega

end Cert.Lib.ColumnLayout
-- ==== Proof.DiagMask.lean ====
/-
  The diagonal mask as words.

  Both programs mark the pair (row, key) with row = key by comparing 32-bit counters: the kernel adds the block's first
  row, 256 times the grid position, to the row's offset inside the block; the reference adds a zero word to the row
  number. With at most 16 blocks of 256 rows and 4096 keys nothing wraps, so either comparison is the comparison of the
  natural numbers; and the reference's conversion of the one-bit result to a float is 1 or 0 accordingly.
-/
import Idealize.ShloMosaic.PureOps.Ideal

namespace Cert.DiagMask

open Idealize.ShloMosaic

/-- Block `a` (of 16), row `b` inside the block (of 256), key `c` (of 4096): the kernel's comparison. -/
theorem word_diag (a b c : Nat) (ha : a < 16) (hb : b < 256) (hc : c < 4096) :
    IntOp.cmpi .eq (IntOp.addi (Scalar.muli (BitVec.ofNat 32 a) 256#32) (BitVec.ofNat 32 b)) (BitVec.ofNat 32 c)
      = if a * 256 + b = c then 1#1 else 0#1 := by
  have h1 : IntOp.addi (Scalar.muli (BitVec.ofNat 32 a) 256#32) (BitVec.ofNat 32 b) = BitVec.ofNat 32 (a * 256 + b) := by
    apply BitVec.eq_of_toNat_eq
    simp only [IntOp.addi, Scalar.muli, IntOp.muli, BitVec.toNat_add, BitVec.toNat_mul, BitVec.toNat_ofNat]
    omega
  rw [h1]
  unfold IntOp.cmpi
  by_cases h : a * 256 + b = c
  · rw [if_pos h, h]; simp
  · rw [if_neg h]
    have : ¬ BitVec.ofNat 32 (a * 256 + b) = BitVec.ofNat 32 c := by
      intro e
      have := congrArg BitVec.toNat e
      simp only [BitVec.toNat_ofNat] at this
      omega
    rw [beq_false_of_ne this]; rfl

/-- Row `r` and key `c` (each of 4096): the reference's comparison, the row number plus a zero word. -/
theorem word_diag0 (r c : Nat) (hr : r < 4096) (hc : c < 4096) :
    IntOp.cmpi .eq (IntOp.addi (BitVec.ofNat 32 r) 0#32) (BitVec.ofNat 32 c) = if r = c then 1#1 else 0#1 := by
  have h1 : IntOp.addi (BitVec.ofNat 32 r) 0#32 = BitVec.ofNat 32 r := by simp [IntOp.addi]
  rw [h1]
  unfold IntOp.cmpi
  by_cases h : r = c
  · rw [if_pos h, h]; simp
  · rw [if_neg h]
    have : ¬ BitVec.ofNat 32 r = BitVec.ofNat 32 c := by
      intro e
      have := congrArg BitVec.toNat e
      simp only [BitVec.toNat_ofNat] at this
      omega
    rw [beq_false_of_ne this]; rfl

/-- A decided bit converted to a float, read as an extended real, is 1 or 0. -/
theorem uitofp_bit (c : Prop) [Decidable c] :
    FloatOps.uitofp (F := Ideal) .f32 (if c then 1#1 else 0#1) = if c then (1 : EReal) else 0 := by
  by_cases h : c
  · rw [if_pos h, if_pos h]; show (((1#1 : BitVec 1).toNat : ℝ) : EReal) = 1; simp
  · rw [if_neg h, if_neg h]; show (((0#1 : BitVec 1).toNat : ℝ) : EReal) = 0; simp

end Cert.DiagMask
-- ==== Proof.KernelValue.lean ====
/-
  The block computation of the drift kernel, cut into named pieces and read at an index.

  At one grid point the body holds a 256-row block `x` of the query array and the whole key arrays. It forms the
  squared norms of the rows (`rowSq`) and of the keys (`keySq`), the row-by-key products (`dots`), the clamped squared
  distances (`distBlk`), the Gaussian weights with the diagonal masked (`wgtBlk`), their row sums (`rowSum`), the
  weighted sums of the keys (`wsum`) and from these the field (`fieldOf`); the stored value is minus the field of the first
  key array plus half the field of the second. Each piece read at a row and a column is the corresponding expression of
  `Cert.Drift`; the stored block at (p, k) is `Cert.Drift.driftK` of row p of the block.
-/
import proofs.«131119_j30296699306003_2_alg».proof.Proof.Gen.KernelIdeal.Skeleton
import proofs.«131119_j30296699306003_2_alg».proof.Proof.LibDriftAlgebra
import proofs.«131119_j30296699306003_2_alg».proof.Proof.DriftSpec
import proofs.«131119_j30296699306003_2_alg».proof.Proof.LibColumnLayout
import proofs.«131119_j30296699306003_2_alg».proof.Proof.DiagMask
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.BlockValue

open Idealize.ShloMosaic Idealize.ShloMosaic.ValueIdx Cert.KernelIdeal Cert.KernelIdeal.Gen Cert.Drift Cert.Lib.ColumnLayout
open scoped BigOperators

/-! ## The pieces -/

/-- The squared norms of the rows of the query block, as a column. -/
def rowSq (v1 : FVec Ideal S256x128 .f32) : FVec Ideal S256x1 .f32 :=
  shapeCast S256x1 (multiReduction .add [1] S256 (mulf v1 v1) 0x00000000#32 reduces_S256x128_S256 (.inl rfl) rfl) shapeCasts_S256_S256x1

/-- The squared norms of the keys, as a row. -/
def keySq (y : FVec Ideal S4096x128 .f32) : FVec Ideal S1x4096 .f32 :=
  shapeCast S1x4096 (multiReduction .add [1] S4096 (mulf y y) 0x00000000#32 reduces_S4096x128_S4096 (.inl rfl) rfl) shapeCasts_S4096_S1x4096

/-- The products of the block's rows with the keys. -/
def dots (v1 : FVec Ideal S256x128 .f32) (y : FVec Ideal S4096x128 .f32) : FVec Ideal S256x4096 .f32 :=
  matmul dot_S256x128_S128x4096_S256x4096_1_0_0_1_n_n (some .fp32) v1
    (transpose S128x4096 [1, 0] y transposes_S4096x128_p1_0_S128x4096) (constant S256x4096 .f32 0x00000000#32)

/-- The clamped squared distances, from the row norms, the key norms and the products. -/
def distBlk (v4 : FVec Ideal S256x1 .f32) (ysq : FVec Ideal S1x4096 .f32) (d : FVec Ideal S256x4096 .f32) : FVec Ideal S256x4096 .f32 :=
  maximumf (subf (addf (broadcastTo S256x4096 v4 broadcasts_S256x1_S256x4096) (broadcastTo S256x4096 ysq broadcasts_S1x4096_S256x4096))
      (mulf (broadcast S256x4096 (Scalar.ofBits .f32 0x40000000#32)) d))
    (broadcast S256x4096 (Scalar.ofBits .f32 0x00000000#32))

/-- The weights: the Gaussian of the distance, zero where the mask bit is set. -/
def wgtBlk (v10 : IVec S256x4096 1) (d : FVec Ideal S256x4096 .f32) : FVec Ideal S256x4096 .f32 :=
  select v10 (broadcast S256x4096 (Scalar.ofBits .f32 0x00000000#32))
    (exp (mulf d (broadcast S256x4096 (Scalar.ofBits .f32 0xBF000000#32))))

/-- The row sums of the weights, as a column. -/
def rowSum (w : FVec Ideal S256x4096 .f32) : FVec Ideal S256x1 .f32 :=
  shapeCast S256x1 (multiReduction .add [1] S256 w 0x00000000#32 reduces_S256x4096_S256 (.inl rfl) rfl) shapeCasts_S256_S256x1

/-- The weighted sums of the keys. -/
def wsum (w : FVec Ideal S256x4096 .f32) (y : FVec Ideal S4096x128 .f32) : FVec Ideal S256x128 .f32 :=
  matmul dot_S256x4096_S4096x128_S256x128_1_0_0_1_n_n none (truncf .bf16 w bitsLt_bf16_f32) (truncf .bf16 y bitsLt_bf16_f32)
    (constant S256x128 .f32 0x00000000#32)

/-- The field from the block, the row sums and the weighted sums. -/
def fieldOf (v1 : FVec Ideal S256x128 .f32) (s : FVec Ideal S256x1 .f32) (a : FVec Ideal S256x128 .f32) : FVec Ideal S256x128 .f32 :=
  subf (mulf v1 (broadcastTo S256x128 (divf s (maximumf s (broadcast S256x1 (Scalar.ofBits .f32 0x322BCC77#32)))) broadcasts_S256x1_S256x128))
    (divf a (broadcastTo S256x128 (maximumf s (broadcast S256x1 (Scalar.ofBits .f32 0x322BCC77#32))) broadcasts_S256x1_S256x128))

/-- The field of one key array. -/
def fieldBlk (v1 : FVec Ideal S256x128 .f32) (v4 : FVec Ideal S256x1 .f32) (v10 : IVec S256x4096 1) (y : FVec Ideal S4096x128 .f32) :
    FVec Ideal S256x128 .f32 :=
  fieldOf v1 (rowSum (wgtBlk v10 (distBlk v4 (keySq y) (dots v1 y)))) (wsum (wgtBlk v10 (distBlk v4 (keySq y) (dots v1 y))) y)

/-! ## The printed payloads are these pieces -/

theorem pay3_eq (v0 : Vec Ideal S256x128 .f32) : k0_pay3 (F := Ideal) v0 = rowSq (k0_pay2 v0) := rfl

theorem pay5_eq (i : grid0.Coords) (v0 : Vec Ideal S256x128 .f32) (v11 : Vec Ideal S4096x128 .f32) :
    k0_pay5 (F := Ideal) i v0 v11
      = fieldBlk (k0_pay2 v0) (k0_pay3 v0) (k0_pay4 i) (shapeCast S4096x128 v11 shapeCasts_S4096x128_S4096x128) := rfl

theorem pay1_eq (v1 : FVec Ideal S256x128 .f32) (v4 : FVec Ideal S256x1 .f32) (v10 : IVec S256x4096 1) (v43 : FVec Ideal S256x128 .f32)
    (v44 : Vec Ideal S4096x128 .f32) :
    k0_pay1 (F := Ideal) v1 v4 v10 v43 v44
      = addf (mulf (broadcast S256x128 (Scalar.ofBits .f32 0xBF800000#32)) v43)
          (mulf (broadcast S256x128 (Scalar.ofBits .f32 0x3F000000#32))
            (fieldBlk v1 v4 v10 (shapeCast S4096x128 v44 shapeCasts_S4096x128_S4096x128))) := rfl

/-! ## The pieces at a row and a column -/

/-- The row-norm column at row `p` is the squared norm of row `p` of the block. -/
theorem rowSq_apply (v1 : FVec Ideal S256x128 .f32) (p : Fin 256) (u : Fin 1) :
    rowSq v1 (ix2 p u) = sqv (fun k : Fin 128 => v1 (ix2 p k)) := by
  unfold rowSq
  refine (shapeCast_a_a1_apply _ shapeCasts_S256_S256x1 p u).trans ?_
  refine (Ideal.multiReduction_add_single (mulf v1 v1) 0x00000000#32 reduces_S256x128_S256 (.inl rfl) rfl (ix1 p)).trans ?_
  show (∑ k : Fin 128, _) = ∑ k : Fin 128, _
  refine Finset.sum_congr rfl fun k _ => ?_
  have e : reduces_S256x128_S256.lift (ix1 p) k = ix2 p k := by
    funext a; apply Fin.ext; match a with | ⟨0, _⟩ => rfl | ⟨1, _⟩ => rfl
  rw [e]; rfl

/-- The key-norm row at key `j` is the squared norm of key `j`. -/
theorem keySq_apply (y : FVec Ideal S4096x128 .f32) (u : Fin 1) (j : Fin 4096) :
    keySq y (ix2 u j) = sqv (fun k : Fin 128 => y (ix2 j k)) := by
  unfold keySq
  refine (shapeCast_a_1a_apply _ shapeCasts_S4096_S1x4096 u j).trans ?_
  refine (Ideal.multiReduction_add_single (mulf y y) 0x00000000#32 reduces_S4096x128_S4096 (.inl rfl) rfl (ix1 j)).trans ?_
  show (∑ k : Fin 128, _) = ∑ k : Fin 128, _
  refine Finset.sum_congr rfl fun k _ => ?_
  have e : reduces_S4096x128_S4096.lift (ix1 j) k = ix2 j k := by
    funext a; apply Fin.ext; match a with | ⟨0, _⟩ => rfl | ⟨1, _⟩ => rfl
  rw [e]; rfl

theorem dots_lhs0 (i : S256x4096.Idx) (q : dot_S256x128_S128x4096_S256x4096_1_0_0_1_n_n.contr.Idx) :
    (dot_S256x128_S128x4096_S256x4096_1_0_0_1_n_n.lhsIdx i q 0).val = (i 0).val := by
  unfold DotDims.lhsIdx
  rw [dif_neg (show ¬(0 : Fin S256x128.rank) ∈ dot_S256x128_S128x4096_S256x4096_1_0_0_1_n_n.lhsBatch by decide),
    dif_pos (show (0 : Fin S256x128.rank) ∈ dot_S256x128_S128x4096_S256x4096_1_0_0_1_n_n.lhsNonContracting by decide)]
  rfl
theorem dots_rhs1 (i : S256x4096.Idx) (q : dot_S256x128_S128x4096_S256x4096_1_0_0_1_n_n.contr.Idx) :
    (dot_S256x128_S128x4096_S256x4096_1_0_0_1_n_n.rhsIdx i q 1).val = (i 1).val := by
  unfold DotDims.rhsIdx
  rw [dif_neg (show ¬(1 : Fin S128x4096.rank) ∈ dot_S256x128_S128x4096_S256x4096_1_0_0_1_n_n.rhsBatch by decide),
    dif_pos (show (1 : Fin S128x4096.rank) ∈ dot_S256x128_S128x4096_S256x4096_1_0_0_1_n_n.rhsNonContracting by decide)]
  rfl

/-- The product block at (p, j) is the inner product of row `p` of the block with key `j`: the matrix unit
    contracts the block's columns against the rows of the transposed key array. -/
theorem dots_apply (v1 : FVec Ideal S256x128 .f32) (y : FVec Ideal S4096x128 .f32) (p : Fin 256) (j : Fin 4096) :
    dots v1 y (ix2 p j) = ∑ k : Fin 128, v1 (ix2 p k) * y (ix2 j k) := by
  unfold dots
  refine (Ideal.matmul_constant_zero_apply dot_S256x128_S128x4096_S256x4096_1_0_0_1_n_n (some .fp32) v1 _ (ix2 p j)).trans ?_
  rw [← Equiv.sum_comp (contrEquiv1 dot_S256x128_S128x4096_S256x4096_1_0_0_1_n_n 128 rfl rfl).symm]
  refine Finset.sum_congr rfl fun k _ => ?_
  have hk := contrEquiv1_symm_val dot_S256x128_S128x4096_S256x4096_1_0_0_1_n_n 128 rfl rfl k
  have el : dot_S256x128_S128x4096_S256x4096_1_0_0_1_n_n.lhsIdx (ix2 p j)
      ((contrEquiv1 dot_S256x128_S128x4096_S256x4096_1_0_0_1_n_n 128 rfl rfl).symm k) = ix2 p k := funext fun a => Fin.ext (by
    match a with
    | ⟨0, _⟩ => exact dots_lhs0 _ _
    | ⟨1, _⟩ => exact (dot_S256x128_S128x4096_S256x4096_1_0_0_1_n_n.lhsIdx_val_of_single rfl _ _).trans hk)
  have er : dot_S256x128_S128x4096_S256x4096_1_0_0_1_n_n.rhsIdx (ix2 p j)
      ((contrEquiv1 dot_S256x128_S128x4096_S256x4096_1_0_0_1_n_n 128 rfl rfl).symm k) = ix2 k j := funext fun a => Fin.ext (by
    match a with
    | ⟨0, _⟩ => exact (dot_S256x128_S128x4096_S256x4096_1_0_0_1_n_n.rhsIdx_val_of_single rfl _ _).trans hk
    | ⟨1, _⟩ => exact dots_rhs1 _ _)
  rw [el, er, transpose_ix2_apply]

/-- The clamped distance block at (p, j), from the row-norm column, the key-norm row and the products. -/
theorem distBlk_apply (v4 : FVec Ideal S256x1 .f32) (ysq : FVec Ideal S1x4096 .f32) (d : FVec Ideal S256x4096 .f32)
    (p : Fin 256) (j : Fin 4096) :
    distBlk v4 ysq d (ix2 p j)
      = max ((v4 (ix2 p (0 : Fin 1)) + ysq (ix2 (0 : Fin 1) j)) - Ideal.ofBits .f32 0x40000000#32 * d (ix2 p j))
          (Ideal.ofBits .f32 0x00000000#32) := by
  unfold distBlk
  show max ((broadcastTo S256x4096 v4 broadcasts_S256x1_S256x4096 (ix2 p j) + broadcastTo S256x4096 ysq broadcasts_S1x4096_S256x4096 (ix2 p j))
      - Ideal.ofBits .f32 0x40000000#32 * d (ix2 p j)) (Ideal.ofBits .f32 0x00000000#32) = _
  rw [broadcastTo_a1_ab_apply v4 broadcasts_S256x1_S256x4096 p j 0, broadcastTo_1b_ab_apply ysq broadcasts_S1x4096_S256x4096 p j]

/-- The weight block at (p, j): zero where the mask bit is set, else the Gaussian of the distance. -/
theorem wgtBlk_apply (v10 : IVec S256x4096 1) (d : FVec Ideal S256x4096 .f32) (p : Fin 256) (j : Fin 4096) :
    wgtBlk v10 d (ix2 p j)
      = Scalar.select (v10 (ix2 p j)) (Ideal.ofBits .f32 0x00000000#32) (Ideal.exp (d (ix2 p j) * Ideal.ofBits .f32 0xBF000000#32)) := rfl

/-- The row-sum column at row `p` is the sum of the weights of row `p` over the keys. -/
theorem rowSum_apply (w : FVec Ideal S256x4096 .f32) (p : Fin 256) (u : Fin 1) :
    rowSum w (ix2 p u) = ∑ j : Fin 4096, w (ix2 p j) := by
  unfold rowSum
  refine (shapeCast_a_a1_apply _ shapeCasts_S256_S256x1 p u).trans ?_
  refine (Ideal.multiReduction_add_single w 0x00000000#32 reduces_S256x4096_S256 (.inl rfl) rfl (ix1 p)).trans ?_
  show (∑ j : Fin 4096, _) = ∑ j : Fin 4096, _
  refine Finset.sum_congr rfl fun j _ => ?_
  have e : reduces_S256x4096_S256.lift (ix1 p) j = ix2 p j := by
    funext a; apply Fin.ext; match a with | ⟨0, _⟩ => rfl | ⟨1, _⟩ => rfl
  rw [e]

theorem wsum_lhs0 (i : S256x128.Idx) (q : dot_S256x4096_S4096x128_S256x128_1_0_0_1_n_n.contr.Idx) :
    (dot_S256x4096_S4096x128_S256x128_1_0_0_1_n_n.lhsIdx i q 0).val = (i 0).val := by
  unfold DotDims.lhsIdx
  rw [dif_neg (show ¬(0 : Fin S256x4096.rank) ∈ dot_S256x4096_S4096x128_S256x128_1_0_0_1_n_n.lhsBatch by decide),
    dif_pos (show (0 : Fin S256x4096.rank) ∈ dot_S256x4096_S4096x128_S256x128_1_0_0_1_n_n.lhsNonContracting by decide)]
  rfl
theorem wsum_rhs1 (i : S256x128.Idx) (q : dot_S256x4096_S4096x128_S256x128_1_0_0_1_n_n.contr.Idx) :
    (dot_S256x4096_S4096x128_S256x128_1_0_0_1_n_n.rhsIdx i q 1).val = (i 1).val := by
  unfold DotDims.rhsIdx
  rw [dif_neg (show ¬(1 : Fin S4096x128.rank) ∈ dot_S256x4096_S4096x128_S256x128_1_0_0_1_n_n.rhsBatch by decide),
    dif_pos (show (1 : Fin S4096x128.rank) ∈ dot_S256x4096_S4096x128_S256x128_1_0_0_1_n_n.rhsNonContracting by decide)]
  rfl

/-- The weighted-sum block at (p, k) is the sum over the keys of the weight times the key's feature `k` (the narrowing
    of both operands before the product is the identity on extended reals). -/
theorem wsum_apply (w : FVec Ideal S256x4096 .f32) (y : FVec Ideal S4096x128 .f32) (p : Fin 256) (k : Fin 128) :
    wsum w y (ix2 p k) = ∑ j : Fin 4096, w (ix2 p j) * y (ix2 j k) := by
  unfold wsum
  refine (Ideal.matmul_constant_zero_apply dot_S256x4096_S4096x128_S256x128_1_0_0_1_n_n none _ _ (ix2 p k)).trans ?_
  rw [← Equiv.sum_comp (contrEquiv1 dot_S256x4096_S4096x128_S256x128_1_0_0_1_n_n 4096 rfl rfl).symm]
  refine Finset.sum_congr rfl fun j _ => ?_
  have hj := contrEquiv1_symm_val dot_S256x4096_S4096x128_S256x128_1_0_0_1_n_n 4096 rfl rfl j
  have el : dot_S256x4096_S4096x128_S256x128_1_0_0_1_n_n.lhsIdx (ix2 p k)
      ((contrEquiv1 dot_S256x4096_S4096x128_S256x128_1_0_0_1_n_n 4096 rfl rfl).symm j) = ix2 p j := funext fun a => Fin.ext (by
    match a with
    | ⟨0, _⟩ => exact wsum_lhs0 _ _
    | ⟨1, _⟩ => exact (dot_S256x4096_S4096x128_S256x128_1_0_0_1_n_n.lhsIdx_val_of_single rfl _ _).trans hj)
  have er : dot_S256x4096_S4096x128_S256x128_1_0_0_1_n_n.rhsIdx (ix2 p k)
      ((contrEquiv1 dot_S256x4096_S4096x128_S256x128_1_0_0_1_n_n 4096 rfl rfl).symm j) = ix2 j k := funext fun a => Fin.ext (by
    match a with
    | ⟨0, _⟩ => exact (dot_S256x4096_S4096x128_S256x128_1_0_0_1_n_n.rhsIdx_val_of_single rfl _ _).trans hj
    | ⟨1, _⟩ => exact wsum_rhs1 _ _)
  rw [el, er]; rfl

/-- The field block at (p, k), from the block, the row-sum column and the weighted sums. -/
theorem fieldOf_apply (v1 : FVec Ideal S256x128 .f32) (s : FVec Ideal S256x1 .f32) (a : FVec Ideal S256x128 .f32)
    (p : Fin 256) (k : Fin 128) :
    fieldOf v1 s a (ix2 p k)
      = v1 (ix2 p k) * Ideal.div (s (ix2 p (0 : Fin 1))) (max (s (ix2 p (0 : Fin 1))) (Ideal.ofBits .f32 0x322BCC77#32))
        - Ideal.div (a (ix2 p k)) (max (s (ix2 p (0 : Fin 1))) (Ideal.ofBits .f32 0x322BCC77#32)) := by
  unfold fieldOf
  show v1 (ix2 p k) * broadcastTo S256x128 (divf s (maximumf s (broadcast S256x1 (Scalar.ofBits .f32 0x322BCC77#32)))) broadcasts_S256x1_S256x128 (ix2 p k)
      - Ideal.div (a (ix2 p k)) (broadcastTo S256x128 (maximumf s (broadcast S256x1 (Scalar.ofBits .f32 0x322BCC77#32))) broadcasts_S256x1_S256x128 (ix2 p k)) = _
  rw [broadcastTo_a1_ab_apply _ broadcasts_S256x1_S256x128 p k 0, broadcastTo_a1_ab_apply _ broadcasts_S256x1_S256x128 p k 0]
  rfl

/-- The mask block at (p, j): set exactly where row `p` of the block at this grid position is key `j`. -/
theorem pay4_apply (i : grid0.Coords) (p : Fin 256) (j : Fin 4096) :
    k0_pay4 i (ix2 p j) = if (i 0).val * 256 + p.val = j.val then 1#1 else 0#1 := by
  unfold k0_pay4
  show IntOp.cmpi .eq (IntOp.addi (Scalar.muli (BitVec.ofNat 32 (i 0).val) 256#32) (iota .tc S256x4096 32 [0] iota_S256x4096_d0_w32 (ix2 p j)))
      (iota .tc S256x4096 32 [1] iota_S256x4096_d1_w32 (ix2 p j)) = _
  rw [iota_single_apply, iota_single_apply]
  exact Cert.DiagMask.word_diag (i 0).val p.val j.val (i 0).isLt p.isLt j.isLt

/-- The field block of one key array at (p, k) is the field of row `p`, given that the norm column holds the rows'
    squared norms and the mask block marks the pairs `dg`. -/
theorem fieldBlk_apply (v1 : FVec Ideal S256x128 .f32) (v4 : FVec Ideal S256x1 .f32) (v10 : IVec S256x4096 1)
    (y : FVec Ideal S4096x128 .f32) (dg : Fin 256 → Fin 4096 → Prop) [∀ p, DecidablePred (dg p)]
    (h4 : ∀ (p : Fin 256) (u : Fin 1), v4 (ix2 p u) = sqv (fun k : Fin 128 => v1 (ix2 p k)))
    (h10 : ∀ (p : Fin 256) (j : Fin 4096), v10 (ix2 p j) = if dg p j then 1#1 else 0#1) (p : Fin 256) (k : Fin 128) :
    fieldBlk v1 v4 v10 y (ix2 p k)
      = fieldK (fun k : Fin 128 => v1 (ix2 p k)) (fun (j : Fin 4096) (k : Fin 128) => y (ix2 j k)) (dg p) k := by
  have hw : ∀ j : Fin 4096, wgtBlk v10 (distBlk v4 (keySq y) (dots v1 y)) (ix2 p j)
      = wgtK (fun k : Fin 128 => v1 (ix2 p k)) (fun (j : Fin 4096) (k : Fin 128) => y (ix2 j k)) (dg p) j := fun j => by
    rw [wgtBlk_apply, h10, distBlk_apply, h4, keySq_apply, dots_apply]
    unfold wgtK dist2
    by_cases h : dg p j
    · rw [if_pos h, if_pos h]; exact select_one _ _
    · rw [if_neg h, if_neg h]; exact select_zero _ _
  unfold fieldBlk
  rw [fieldOf_apply, rowSum_apply, wsum_apply]
  unfold fieldK
  simp only [hw]

/-- THE STORED BLOCK at (p, k): the drift of row `p` of the query block against the two key arrays, the marked key
    being the one whose number is the block's first row plus `p`. -/
theorem block_apply (i : grid0.Coords) (x : Vec Ideal S256x128 .f32) (yp yn : Vec Ideal S4096x128 .f32) (p : Fin 256) (k : Fin 128) :
    k0_pay1 (F := Ideal) (k0_pay2 x) (k0_pay3 x) (k0_pay4 i) (k0_pay5 i x yp) yn (ix2 p k)
      = driftK (fun k : Fin 128 => x (ix2 p k)) (fun (j : Fin 4096) (k : Fin 128) => yp (ix2 j k))
          (fun (j : Fin 4096) (k : Fin 128) => yn (ix2 j k)) (fun j : Fin 4096 => (i 0).val * 256 + p.val = j.val) k := by
  have h2 : k0_pay2 (F := Ideal) x = x := shapeCast_self x _
  have hyp : shapeCast S4096x128 yp shapeCasts_S4096x128_S4096x128 = yp := shapeCast_self yp _
  have hyn : shapeCast S4096x128 yn shapeCasts_S4096x128_S4096x128 = yn := shapeCast_self yn _
  have h3 : ∀ (p : Fin 256) (u : Fin 1), k0_pay3 (F := Ideal) x (ix2 p u) = sqv (fun k : Fin 128 => x (ix2 p k)) := fun p u => by
    rw [pay3_eq, h2]; exact rowSq_apply x p u
  rw [pay1_eq, pay5_eq, h2, hyp, hyn]
  show Ideal.ofBits .f32 0xBF800000#32 * fieldBlk x (k0_pay3 x) (k0_pay4 i) yp (ix2 p k)
      + Ideal.ofBits .f32 0x3F000000#32 * fieldBlk x (k0_pay3 x) (k0_pay4 i) yn (ix2 p k) = _
  rw [fieldBlk_apply x (k0_pay3 x) (k0_pay4 i) yp (fun (p : Fin 256) (j : Fin 4096) => (i 0).val * 256 + p.val = j.val) h3 (pay4_apply i) p k,
    fieldBlk_apply x (k0_pay3 x) (k0_pay4 i) yn (fun (p : Fin 256) (j : Fin 4096) => (i 0).val * 256 + p.val = j.val) h3 (pay4_apply i) p k]
  rfl

/-- The stored block at (p, k), when the query block's row `p` is row `r` of a [4096, 128] array `X`, the two key
    operands are the arrays `Yp`, `Yn`, and `r` is the block's first row plus `p`: the drift array at (r, k). -/
theorem block_read (i : grid0.Coords) (x : Vec Ideal S256x128 .f32) (yp yn : Vec Ideal S4096x128 .f32)
    (X Yp Yn : Vec Ideal S4096x128 .f32) (p : Fin 256) (k : Fin 128) (r : Fin 4096)
    (hx : ∀ k : Fin 128, x (ix2 p k) = X (ix2 r k)) (hyp : yp = Yp) (hyn : yn = Yn) (hr : (i 0).val * 256 + p.val = r.val) :
    k0_pay1 (F := Ideal) (k0_pay2 x) (k0_pay3 x) (k0_pay4 i) (k0_pay5 i x yp) yn (ix2 p k) = driftArr X Yp Yn (ix2 r k) := by
  subst hyp hyn
  rw [block_apply, driftArr_apply]
  simp only [hx, hr]

end Cert.KernelIdeal.BlockValue

end
-- ==== Proof.KernelRun.lean ====
/-
  The kernel program's result array.

  The region runs the body at 16 grid points; point `t` reads rows 256 t … 256 t + 255 of the flattened query array and
  the whole flattened key arrays, and writes back the same rows of the output. Row `p` of the block written at point `t`
  is the drift of row 256 t + p (the stored block read at an index), so every write-back is a block of ONE array, the
  drift array of the three flattened arguments; the blocks cover the output, so the output ends holding that array. The
  host operations before the region flatten the arguments, and the one after it unflattens the output.
-/
import proofs.«131119_j30296699306003_2_alg».proof.Proof.KernelIdealFrame
import proofs.«131119_j30296699306003_2_alg».proof.Proof.KernelValue
import Idealize.ShloMosaic.Lib.Pipeline.Value
import Idealize.ShloMosaic.Lib.StableHlo.Run

set_option maxRecDepth 16384

noncomputable section

namespace Cert.KernelIdeal.RunValue

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.GenP Cert.KernelIdeal.BlockValue Cert.Drift

variable (m : (ℓ : Loc nD τ sig) → Buf (Elt Ideal) ℓ) (ρ : Dev nD → PrngReg)

theorem hz : (![0, 0] : Fin 2 → Nat) = fun _ => 0 := funext fun a => by fin_cases a <;> rfl

/-- The printed index maps over the grid: the query and output windows sit at block row `t`, block column 0; the key
    windows at block (0, 0); and the grid coordinate of point `t` is `t`. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ (grid0.coords t 0).val = t.val :=
  (by decide +kernel : ∀ t : Fin grid0.N, _)

/-- WHAT POINT `t` WRITES BACK is block `t` of the drift array of the flattened arguments as the region finds them. -/
theorem flushed_eq (c : Dev nD) (t : Fin cfg0.N) :
    (dats m 0 c).flushed 3 t
      = ((cfg0.win 3).blk t).view.read (Elt Ideal) (driftArr (V m c main_v0) (V m c main_v1) (V m c main_v2)) := by
  show (cfg0.win 3).cut (grid0.coords t) ((dats m 0 c).after 3 t) = _
  rw [after0_3]
  unfold out0_3
  rw [View.canon_unit_zero hz]
  simp only [View.ld_unit_zero (S := S256x128) hz, View.ld_unit_zero (S := S4096x128) hz]
  obtain ⟨e00, e01, e10, e11, e20, e21, e30, e31, eg⟩ := idx_facts t
  refine funext fun (y : S256x128.Idx) => ?_
  obtain ⟨p, k, rfl⟩ : ∃ (p : Fin 256) (k : Fin 128), y = ix2 p k := ⟨y 0, y 1, eq_ix2 y⟩
  have hp : p.val < 256 := p.isLt
  have hk : k.val < 128 := k.isLt
  have ht : t.val < 16 := lt_of_lt_of_eq t.isLt N_0
  refine (block_read (grid0.coords t) (iblk m c 0 t) (iblk m c 1 t) (iblk m c 2 t) (V m c main_v0) (V m c main_v1) (V m c main_v2)
    p k ⟨t.val * 256 + p.val, by omega⟩ ?_ ?_ ?_ ?_).trans ?_
  · intro k'
    show V m c main_v0 (((cfg0.win 0).blk t).view.emb (ix2 p k')) = V m c main_v0 (ix2 ⟨t.val * 256 + p.val, by omega⟩ k')
    refine congrArg (V m c main_v0) ?_
    funext a; apply Fin.ext
    match a with
    | ⟨0, _⟩ => show win0_0.index t (0 : Fin 2) * 256 + 1 * p.val = t.val * 256 + p.val; omega
    | ⟨1, _⟩ => show win0_0.index t (1 : Fin 2) * 128 + 1 * k'.val = k'.val; omega
  · funext j
    show V m c main_v1 (((cfg0.win 1).blk t).view.emb j) = V m c main_v1 j
    refine congrArg (V m c main_v1) ?_
    funext a; apply Fin.ext
    match a with
    | ⟨0, _⟩ => show win0_1.index t (0 : Fin 2) * 4096 + 1 * (j 0).val = (j 0).val; omega
    | ⟨1, _⟩ => show win0_1.index t (1 : Fin 2) * 128 + 1 * (j 1).val = (j 1).val; omega
  · funext j
    show V m c main_v2 (((cfg0.win 2).blk t).view.emb j) = V m c main_v2 j
    refine congrArg (V m c main_v2) ?_
    funext a; apply Fin.ext
    match a with
    | ⟨0, _⟩ => show win0_2.index t (0 : Fin 2) * 4096 + 1 * (j 0).val = (j 0).val; omega
    | ⟨1, _⟩ => show win0_2.index t (1 : Fin 2) * 128 + 1 * (j 1).val = (j 1).val; omega
  · show (grid0.coords t 0).val * 256 + p.val = t.val * 256 + p.val
    omega
  · show driftArr (V m c main_v0) (V m c main_v1) (V m c main_v2) (ix2 ⟨t.val * 256 + p.val, by omega⟩ k)
      = driftArr (V m c main_v0) (V m c main_v1) (V m c main_v2) (((cfg0.win 3).blk t).view.emb (ix2 p k))
    refine congrArg (driftArr (V m c main_v0) (V m c main_v1) (V m c main_v2)) ?_
    funext a; apply Fin.ext
    match a with
    | ⟨0, _⟩ => show t.val * 256 + p.val = win0_3.index t (0 : Fin 2) * 256 + 1 * p.val; omega
    | ⟨1, _⟩ => show k.val = win0_3.index t (1 : Fin 2) * 128 + 1 * k.val; omega

/-- An index of the output array is in point `t`'s block iff each coordinate is in the block's range on its axis. -/
theorem mem_blk (t : Fin cfg0.N) (i : S4096x128.Idx) :
    i ∈ ((cfg0.win 3).blk t).view.set ↔ ∀ a : Fin 2, win0_3.index t a * S256x128.size a ≤ (i a).val ∧ (i a).val < win0_3.index t a * S256x128.size a + S256x128.size a := by
  show i ∈ ((View.whole main_v3).slice (win0_3.rect t)).set ↔ _
  rw [View.set_slice_whole, Rect.mem_set_unit]
  exact Iff.rfl

/-- Every index of the output array is in the block of the point whose number is its row divided by 256. -/
theorem cover (i : S4096x128.Idx) : ∃ t : Fin cfg0.N, (cfg0.win 3).flush t = true ∧ i ∈ ((cfg0.win 3).blk t).view.set := by
  have hi0 : (i 0).val < 4096 := (i 0).isLt
  have hi1 : (i 1).val < 128 := (i 1).isLt
  have hN : grid0.N = 16 := N_0
  have hlt : (i 0).val / 256 < grid0.N := by omega
  refine ⟨⟨(i 0).val / 256, hlt⟩, flush0_3 _, ?_⟩
  rw [mem_blk]
  obtain ⟨-, -, -, -, -, -, e30, e31, -⟩ := idx_facts ⟨(i 0).val / 256, hlt⟩
  have e30' : win0_3.index ⟨(i 0).val / 256, hlt⟩ (0 : Fin 2) = (i 0).val / 256 := e30
  intro a
  match a with
  | ⟨0, _⟩ =>
    show win0_3.index ⟨(i 0).val / 256, hlt⟩ (0 : Fin 2) * 256 ≤ (i 0).val ∧ (i 0).val < win0_3.index ⟨(i 0).val / 256, hlt⟩ (0 : Fin 2) * 256 + 256
    omega
  | ⟨1, _⟩ =>
    show win0_3.index ⟨(i 0).val / 256, hlt⟩ (1 : Fin 2) * 128 ≤ (i 1).val ∧ (i 1).val < win0_3.index ⟨(i 0).val / 256, hlt⟩ (1 : Fin 2) * 128 + 128
    omega

/-- THE OUTPUT ARRAY after the region: the drift array of the flattened arguments. -/
theorem final (c : Dev nD) :
    (dats m 0 c).arrAt 3 cfg0.N = driftArr (V m c main_v0) (V m c main_v1) (V m c main_v2) :=
  (dats m 0 c).arrAt_eq_of_cover 3 _ (fun t _ => flushed_eq m c t) cover

/-! ## The host operations around the region -/

/-- The region finds the first argument flattened. -/
theorem V_flat0 (c : Dev nD) :
    V m c main_v0 = shapeCast S4096x128 (m ((c : Thread nD τ).loc main_arg0)) shapeCasts_S4096x16x8_S4096x128 := by
  show StableHlo.after hostOps0 (fun b => m (c, b)) (Proc.devRef .tc main_v0) = _
  after_results; rfl
/-- The region finds the second argument flattened. -/
theorem V_flat1 (c : Dev nD) :
    V m c main_v1 = shapeCast S4096x128 (m ((c : Thread nD τ).loc main_arg1)) shapeCasts_S4096x16x8_S4096x128 := by
  show StableHlo.after hostOps0 (fun b => m (c, b)) (Proc.devRef .tc main_v1) = _
  after_results; rfl
/-- The region finds the third argument flattened. -/
theorem V_flat2 (c : Dev nD) :
    V m c main_v2 = shapeCast S4096x128 (m ((c : Thread nD τ).loc main_arg2)) shapeCasts_S4096x16x8_S4096x128 := by
  show StableHlo.after hostOps0 (fun b => m (c, b)) (Proc.devRef .tc main_v2) = _
  after_results; rfl

/-- The operation after the region unflattens the output array. -/
theorem tail_eq (c : Dev nD) :
    Pipeline.afterTail₀ cfgs (dats m) 0 (V0 m) [hostOps1] c main_v4
      = shapeCast S4096x16x8 ((dats m 0 c).arrAt 3 cfg0.N) shapeCasts_S4096x128_S4096x16x8 := by
  unfold Pipeline.afterTail₀
  show StableHlo.after hostOps1 _ (Proc.devRef .tc main_v4) = _
  after_results
  have e : Pipeline.withArrays (cfgs 0).spec c (V0 m c) (fun w => (dats m 0 c).arrAt w (cfgs 0).N) (Proc.tc.devRef main_v3)
      = (dats m 0 c).arrAt 3 cfg0.N :=
    Pipeline.withArrays_arr spec0 launch0.win.arr_inj c _ _ 3
  rw [e]
  rfl

/-- The program's result: the drift array of the flattened arguments, unflattened. -/
theorem result_eq (c : Dev nD) :
    Pipeline.afterTail₀ cfgs (dats m) 0 (V0 m) [hostOps1] c main_v4
      = shapeCast S4096x16x8 (driftArr
          (shapeCast S4096x128 (m ((c : Thread nD τ).loc main_arg0)) shapeCasts_S4096x16x8_S4096x128)
          (shapeCast S4096x128 (m ((c : Thread nD τ).loc main_arg1)) shapeCasts_S4096x16x8_S4096x128)
          (shapeCast S4096x128 (m ((c : Thread nD τ).loc main_arg2)) shapeCasts_S4096x16x8_S4096x128))
          shapeCasts_S4096x128_S4096x16x8 := by
  rw [tail_eq, final, V_flat0, V_flat1, V_flat2]

/-- THE RUN of the idealized kernel program: every weakly fair execution terminates with the result at the drift
    array of the flattened arguments, unflattened, and the arguments unchanged. -/
theorem run : θ_run defs (onTc (τ := τ) (main (F := Ideal))) ⟨m, fun _ => 0, ρ⟩ fun r => ∀ c : Dev nD,
      r.2.mem ((c.tc : Thread nD τ).loc main_v4)
        = shapeCast S4096x16x8 (driftArr
            (shapeCast S4096x128 (m ((c.tc : Thread nD τ).loc main_arg0)) shapeCasts_S4096x16x8_S4096x128)
            (shapeCast S4096x128 (m ((c.tc : Thread nD τ).loc main_arg1)) shapeCasts_S4096x16x8_S4096x128)
            (shapeCast S4096x128 (m ((c.tc : Thread nD τ).loc main_arg2)) shapeCasts_S4096x16x8_S4096x128))
            shapeCasts_S4096x128_S4096x16x8
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
      ⟨((h c).2 main_v4 (Pipeline.mem_restRefs_of main_v4 (by decide) (by decide))).trans (result_eq m c),
        ((h c).2 main_arg0 (Pipeline.mem_restRefs_of main_arg0 (by decide) (by decide))).trans (W_main_arg0 m (dats m) c),
        ((h c).2 main_arg1 (Pipeline.mem_restRefs_of main_arg1 (by decide) (by decide))).trans (W_main_arg1 m (dats m) c),
        ((h c).2 main_arg2 (Pipeline.mem_restRefs_of main_arg2 (by decide) (by decide))).trans (W_main_arg2 m (dats m) c)⟩)
    (run_main m ρ)

end Cert.KernelIdeal.RunValue

end
-- ==== Proof.RefValue.lean ====
/-
  The reference program's result as the drift array.

  The reference flattens the three arguments to [4096, 128], computes for each key array the pairwise clamped squared
  distances from the row norms and one matrix product, the Gaussian weights masked by `1 - eye`, their row sums, the
  normalised weights, and the field `x (s / max s ε) - (w / max s ε) y`; it combines the two fields with the factors
  `1 · (-1 ·)` and `1/2 · (1 ·)`, and unflattens. Stage by stage, read at a row and a column, this is the second
  arrangement of `Cert.Drift` (`driftArrR`), hence the drift array.
-/
import proofs.«131119_j30296699306003_2_alg».proof.Proof.Gen.ReferenceIdeal.Run
import proofs.«131119_j30296699306003_2_alg».proof.Proof.Gen.ReferenceIdeal.Read
import proofs.«131119_j30296699306003_2_alg».proof.Proof.DriftSpec
import proofs.«131119_j30296699306003_2_alg».proof.Proof.DiagMask
import Idealize.ShloMosaic.Lib.ValueIdx
import Idealize.ShloMosaic.Lib.Pipeline.Value
import Idealize.ShloMosaic.PureOps.Ideal.Laws

noncomputable section

namespace Cert.ReferenceIdeal.RefValue

open Idealize.ShloMosaic Idealize.ShloMosaic.ValueIdx Cert.ReferenceIdeal Cert.ReferenceIdeal.Gen Cert.ReferenceIdeal.Read Cert.Drift
open scoped BigOperators

/-! ## Where each layout operation reads, by coordinates -/

theorem e_red (r : Fin 4096) (k : Fin 128) : idx_main_v4 (ix1 r) k = ix2 r k := by
  funext a; apply Fin.ext; match a with | ⟨0, _⟩ => rfl | ⟨1, _⟩ => rfl
theorem e_col (r : Fin 4096) (u : Fin 1) : idx_main_v7 (ix2 r u) = ix1 r := by
  funext a; apply Fin.ext; match a with | ⟨0, _⟩ => rfl
theorem e_row (u : Fin 1) (j : Fin 4096) : idx_main_v8 (ix2 u j) = ix1 j := by
  funext a; apply Fin.ext; match a with | ⟨0, _⟩ => rfl
theorem e_colb (r j : Fin 4096) : idx_main_v9 (ix2 r j) = ix2 r (0 : Fin 1) := by
  funext a; apply Fin.ext; match a with | ⟨0, _⟩ => rfl | ⟨1, _⟩ => rfl
theorem e_rowb (r j : Fin 4096) : idx_main_v10 (ix2 r j) = ix2 (0 : Fin 1) j := by
  funext a; apply Fin.ext; match a with | ⟨0, _⟩ => rfl | ⟨1, _⟩ => rfl
theorem e_tr (k : Fin 128) (j : Fin 4096) : idx_main_v12 (ix2 k j) = ix2 j k := by
  funext a; apply Fin.ext; match a with | ⟨0, _⟩ => rfl | ⟨1, _⟩ => rfl
theorem e_dl (r j : Fin 4096) (k : Fin 128) : lidx_main_v13 (ix2 r j) k = ix2 r k := by
  funext a; apply Fin.ext; match a with | ⟨0, _⟩ => rfl | ⟨1, _⟩ => rfl
theorem e_dr (r j : Fin 4096) (k : Fin 128) : ridx_main_v13 (ix2 r j) k = ix2 k j := by
  funext a; apply Fin.ext; match a with | ⟨0, _⟩ => rfl | ⟨1, _⟩ => rfl
theorem e_red2 (r j : Fin 4096) : idx_main_v32 (ix1 r) j = ix2 r j := by
  funext a; apply Fin.ext; match a with | ⟨0, _⟩ => rfl | ⟨1, _⟩ => rfl
theorem e_colk (r : Fin 4096) (k : Fin 128) : idx_main_v39 (ix2 r k) = ix2 r (0 : Fin 1) := by
  funext a; apply Fin.ext; match a with | ⟨0, _⟩ => rfl | ⟨1, _⟩ => rfl
theorem e_wl (r : Fin 4096) (k : Fin 128) (j : Fin 4096) : lidx_main_v41 (ix2 r k) j = ix2 r j := by
  funext a; apply Fin.ext; match a with | ⟨0, _⟩ => rfl | ⟨1, _⟩ => rfl
theorem e_wr (r : Fin 4096) (k : Fin 128) (j : Fin 4096) : ridx_main_v41 (ix2 r k) j = ix2 j k := by
  funext a; apply Fin.ext; match a with | ⟨0, _⟩ => rfl | ⟨1, _⟩ => rfl

theorem e_col2 (r : Fin 4096) (u : Fin 1) : idx_main_v33 (ix2 r u) = ix1 r := by
  funext a; apply Fin.ext; match a with | ⟨0, _⟩ => rfl
theorem e_colb2 (r j : Fin 4096) : idx_main_v36 (ix2 r j) = ix2 r (0 : Fin 1) := by
  funext a; apply Fin.ext; match a with | ⟨0, _⟩ => rfl | ⟨1, _⟩ => rfl

variable (x0 x1 : (⟨S4096x16x8, .f32⟩ : BufTy).Contents (Elt Ideal))

/-! ## The stages of one field, at a row and a column -/

/-- The query norms. -/
theorem sq0 (r : Fin 4096) : val_main_v4 (F := Ideal) x0 (ix1 r) = sqv (fun k : Fin 128 => val_main_v0 (F := Ideal) x0 (ix2 r k)) := by
  rw [val_main_v4_apply]
  simp only [val_main_v3_apply, val_main_cst_apply, e_red, Ideal.ofBits_def, Ideal.mulf_def, Ideal.ofBits_zero_f32, zero_add]
  rfl

/-- The key norms. -/
theorem sq1 (j : Fin 4096) : val_main_v6 (F := Ideal) x1 (ix1 j) = sqv (fun k : Fin 128 => val_main_v1 (F := Ideal) x1 (ix2 j k)) := by
  rw [val_main_v6_apply]
  simp only [val_main_v5_apply, val_main_cst_0_apply, idx_main_v6, e_red, Ideal.ofBits_def, Ideal.mulf_def, Ideal.ofBits_zero_f32, zero_add]
  rfl

/-- The products of the query rows with the keys. -/
theorem dot01 (r j : Fin 4096) :
    val_main_v13 (F := Ideal) x0 x1 (ix2 r j)
      = ∑ k : Fin 128, val_main_v0 (F := Ideal) x0 (ix2 r k) * val_main_v1 (F := Ideal) x1 (ix2 j k) := by
  rw [val_main_v13_apply]
  simp only [val_main_v12_apply, e_dl, e_dr, e_tr]

/-- The clamped squared distances. -/
theorem dist01 (r j : Fin 4096) :
    val_main_v18 (F := Ideal) x0 x1 (ix2 r j)
      = dist2 (fun k : Fin 128 => val_main_v0 (F := Ideal) x0 (ix2 r k))
          (fun (j : Fin 4096) (k : Fin 128) => val_main_v1 (F := Ideal) x1 (ix2 j k)) j := by
  simp only [val_main_v18_apply, val_main_v16_apply, val_main_v11_apply, val_main_v9_apply, val_main_v7_apply,
    val_main_v10_apply, val_main_v8_apply, val_main_v15_apply, val_main_v14_apply, val_main_cst_1_apply,
    val_main_v17_apply, val_main_cst_2_apply, e_colb, e_col, e_rowb, e_row, sq0, sq1, dot01,
    Ideal.ofBits_def, Ideal.mulf_def, Ideal.addf_def, Ideal.subf_def, Ideal.maximumf_def]
  rfl

/-- The masked weights, in the reference's arrangement. -/
theorem wgt01 (r j : Fin 4096) :
    val_main_v31 (F := Ideal) x0 x1 (ix2 r j)
      = wgtR (fun k : Fin 128 => val_main_v0 (F := Ideal) x0 (ix2 r k))
          (fun (j : Fin 4096) (k : Fin 128) => val_main_v1 (F := Ideal) x1 (ix2 j k)) (fun j : Fin 4096 => r.val = j.val) j := by
  have hbit : val_main_v27 (F := Ideal) (ix2 r j) = if r.val = j.val then 1#1 else 0#1 := by
    simp only [val_main_v27_apply, val_main_v26_apply, val_main_v23_apply, val_main_v24_apply, val_main_v25_apply, val_main_c_apply]
    exact Cert.DiagMask.word_diag0 r.val j.val r.isLt j.isLt
  simp only [val_main_v31_apply, val_main_v22_apply, val_main_v21_apply, val_main_v19_apply, val_main_v20_apply,
    val_main_cst_3_apply, val_main_v30_apply, val_main_v29_apply, val_main_cst_4_apply, val_main_v28_apply, hbit,
    Cert.DiagMask.uitofp_bit, dist01,
    Ideal.ofBits_def, Ideal.mulf_def, Ideal.subf_def, Ideal.hostNegf_def, Ideal.negf_def, Ideal.hostDivf_def,
    Ideal.hostUnary_exp_def]
  rfl

/-- The row sums of the weights. -/
theorem sum01 (r : Fin 4096) :
    val_main_v32 (F := Ideal) x0 x1 (ix1 r)
      = ∑ j : Fin 4096, wgtR (fun k : Fin 128 => val_main_v0 (F := Ideal) x0 (ix2 r k))
          (fun (j : Fin 4096) (k : Fin 128) => val_main_v1 (F := Ideal) x1 (ix2 j k)) (fun j : Fin 4096 => r.val = j.val) j := by
  rw [val_main_v32_apply]
  simp only [val_main_cst_5_apply, e_red2, wgt01, Ideal.ofBits_def, Ideal.ofBits_zero_f32, zero_add]

/-- The field of one key array, in the reference's arrangement. -/
theorem field01 (r : Fin 4096) (k : Fin 128) :
    val_main_v42 (F := Ideal) x0 x1 (ix2 r k)
      = fieldR (fun k : Fin 128 => val_main_v0 (F := Ideal) x0 (ix2 r k))
          (fun (j : Fin 4096) (k : Fin 128) => val_main_v1 (F := Ideal) x1 (ix2 j k)) (fun j : Fin 4096 => r.val = j.val) k := by
  rw [val_main_v42_apply, val_main_v41_apply]
  simp only [val_main_v40_apply, val_main_v39_apply, val_main_v38_apply, val_main_v37_apply, val_main_v36_apply,
    val_main_v35_apply, val_main_v34_apply, val_main_cst_6_apply, val_main_v33_apply,
    e_colk, e_wl, e_wr, e_colb2, e_col2, sum01, wgt01,
    Ideal.ofBits_def, Ideal.mulf_def, Ideal.subf_def, Ideal.hostDivf_def, Ideal.maximumf_def]
  rfl

/-! ## The whole reference -/

/-- The second field is the first with the other key array: the two chains of operations are one function. -/
theorem field02 (x2 : (⟨S4096x16x8, .f32⟩ : BufTy).Contents (Elt Ideal)) :
    val_main_v86 (F := Ideal) x0 x2 = val_main_v42 (F := Ideal) x0 x2 := rfl

theorem flat2_eq (x2 : (⟨S4096x16x8, .f32⟩ : BufTy).Contents (Elt Ideal)) :
    val_main_v2 (F := Ideal) x2 = val_main_v1 (F := Ideal) x2 := rfl

/-- The reference's combined array, before it is unflattened, is the drift array of the flattened arguments. -/
theorem combined_eq (x2 : (⟨S4096x16x8, .f32⟩ : BufTy).Contents (Elt Ideal)) :
    val_main_v91 (F := Ideal) x0 x1 x2
      = driftArr (val_main_v0 (F := Ideal) x0) (val_main_v1 (F := Ideal) x1) (val_main_v2 (F := Ideal) x2) := by
  rw [← driftArrR_eq]
  funext i
  obtain ⟨r, k, rfl⟩ : ∃ (r : Fin 4096) (k : Fin 128), i = ix2 r k := ⟨i 0, i 1, eq_ix2 i⟩
  rw [driftArrR_apply]
  simp only [val_main_v91_apply, val_main_v46_apply, val_main_v45_apply, val_main_cst_8_apply, val_main_v44_apply,
    val_main_v43_apply, val_main_cst_7_apply, val_main_v90_apply, val_main_v89_apply, val_main_cst_19_apply,
    val_main_v88_apply, val_main_v87_apply, val_main_cst_18_apply, field02, flat2_eq, field01,
    Ideal.ofBits_def, Ideal.mulf_def, Ideal.addf_def]
  rfl

/-- The reference's result: the drift array of the flattened arguments, unflattened. -/
theorem result_eq (x2 : (⟨S4096x16x8, .f32⟩ : BufTy).Contents (Elt Ideal)) :
    val_main_v92 (F := Ideal) x0 x1 x2
      = shapeCast S4096x16x8 (driftArr (val_main_v0 (F := Ideal) x0) (val_main_v1 (F := Ideal) x1) (val_main_v2 (F := Ideal) x2))
          shapeCasts_S4096x128_S4096x16x8 := by
  rw [← combined_eq]; rfl

end Cert.ReferenceIdeal.RefValue

end
-- ==== Proof.lean ====
/-
  The certificate of the pairwise Gaussian drift kernel against its reference.

  Both programs flatten the three [4096, 16, 8] arguments to [4096, 128], compute the drift array — for every row of the
  query array, minus the Gaussian-weighted field of the first key array plus half that of the second, the row's own key
  masked out — and unflatten it. The kernel does so block by block, 256 rows per grid point, masking by a choice on
  32-bit row counters, scaling the clamped distance by -1/2 and dividing each weighted sum once; the reference works on
  whole arrays, masks by the factor `1 - eye`, negates and halves the distance, and normalises each weight before the
  sum. On extended reals the two arrangements are one function (`Cert.Drift.driftR_eq`; no finiteness is needed: the
  weights lie in [0, 1] whatever the inputs, so the normaliser is a positive real). The kernel's result array is read
  off the run of its frame (`Cert.KernelIdeal.RunValue.run`), the reference's off its operations one at a time
  (`Cert.ReferenceIdeal.RefValue.result_eq`). The three frames are the programs' runs with the results dropped, and
  the idealization rewrote nothing.
-/
import proofs.«131119_j30296699306003_2_alg».proof.Defs
import proofs.«131119_j30296699306003_2_alg».proof.Proof.Gen.Kernel
import proofs.«131119_j30296699306003_2_alg».proof.Proof.Gen.KernelIdeal
import proofs.«131119_j30296699306003_2_alg».proof.Proof.Gen.ReferenceIdeal
import proofs.«131119_j30296699306003_2_alg».proof.Proof.Gen.Pre_finite_inputs
import proofs.«131119_j30296699306003_2_alg».proof.Proof.Gen.ReferenceIdeal.Run
import proofs.«131119_j30296699306003_2_alg».proof.Proof.KernelFrame
import proofs.«131119_j30296699306003_2_alg».proof.Proof.KernelIdealFrame
import proofs.«131119_j30296699306003_2_alg».proof.Proof.KernelRun
import proofs.«131119_j30296699306003_2_alg».proof.Proof.RefValue
import Idealize.ShloMosaic.Adequacy
import Idealize.ShloMosaic.Init

noncomputable section

namespace Cert.Proof

open Idealize.ShloMosaic Idealize.SL.Sem

/-- The word-level kernel program runs and keeps its arguments. -/
theorem frame_k : Cert.frame_Kernel := fun m ρ _ => Cert.Kernel.GenP.frame m ρ

/-- So does the idealized kernel program. -/
theorem frame_ki : Cert.frame_KernelIdeal := fun m ρ _ => Cert.KernelIdeal.GenP.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both idealized programs end with the drift array of the flattened
    arguments, unflattened: the kernel by its run read block by block, the reference by its operations read one at a time
    and the equality of the two arrangements. -/
theorem algebraic : Cert.algebraic_KernelIdeal_ReferenceIdeal := by
  intro m ρ m' ρ' _ hagree
  refine ⟨_, Cert.KernelIdeal.RunValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v92_eq, Cert.ReferenceIdeal.RefValue.result_eq,
    (hagree c).1, (hagree c).2.1, (hagree c).2.2]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
